-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x100000 : Shape := ⟨2, ![128, 100000]⟩
abbrev S_ : Shape := ⟨0, ![]⟩
abbrev S128 : Shape := ⟨1, ![128]⟩
abbrev S128x1 : Shape := ⟨2, ![128, 1]⟩

class Facts : Prop where
  reducesTo_S128x100000_S128_d1 : S128x100000.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x100000_0_1 : S128x1.BroadcastsInDim S128x100000 (![0, 1] : Fin 2 → Fin S128x100000.rank)
  bcast_S_S128x100000 : S_.BroadcastsInDim S128x100000 (![] : Fin 0 → Fin S128x100000.rank)
  reducesTo_S128x100000_S_d0_1 : S128x100000.ReducesTo [0, 1] S_
  reducesTo_S128_S_d0 : S128.ReducesTo [0] S_

variable [Facts]

def fn_part1 {F : FTy → Type} [FloatOps F] (main_v11 : FVec F S128x100000 .f32) (main_v15 : IVec S_ 1) (main_v16 : FVec F S128x100000 .f32) (main_v17 : FVec F S128x100000 .f32) : IVec S_ 1 :=
  let main_v18 : IVec S128x100000 1 := cmpf .olt main_v16 main_v17
  let main_c_4 : IVec S_ 1 := constantI S_ 1 1#1
  let main_v19 : IVec S_ 1 := (fun x v => Host.reduce IntOp.andi x v reducesTo_S128x100000_S_d0_1 h_S_) main_v18 main_c_4
  let main_v20 : IVec S_ 1 := andi main_v15 main_v19
  let main_cst_5 : FVec F S_ .f32 := constant S_ .f32 0x00000000#32
  let main_v21 : FVec F S128 .f32 := (fun x v => Host.reduceAdd x v reducesTo_S128x100000_S128_d1 h_S_) main_v11 main_cst_5
  let main_cst_6 : FVec F S_ .f32 := constant S_ .f32 0x00000000#32
  let main_v22 : FVec F S128 .f32 := broadcastInDim S128 ![] bcast_S_S128 main_cst_6
  let main_v23 : IVec S128 1 := cmpf .une main_v21 main_v22
  let main_c_7 : IVec S_ 1 := constantI S_ 1 1#1
  let main_v24 : IVec S_ 1 := (fun x v => Host.reduce IntOp.andi x v reducesTo_S128_S_d0 h_S_) main_v23 main_c_7
  let main_v25 : IVec S_ 1 := andi main_v20 main_v24
  main_v25

def fn {F : FTy → Type} [FloatOps F] (main_arg0 : FVec F S128x100000 .f32) (main_arg1 : FVec F S128x100000 .f32) : IVec S_ 1 :=
  let main_cst : FVec F S_ .f32 := constant S_ .f32 0xFF800000#32
  let main_v0 : FVec F S128 .f32 := (fun x v => Host.reduce FloatOps.maximumf x v reducesTo_S128x100000_S128_d1 h_S_) main_arg0 main_cst
  let main_cst_0 : FVec F S_ .f32 := constant S_ .f32 0xFF800000#32
  let main_v1 : FVec F S128 .f32 := broadcastInDim S128 ![] bcast_S_S128 main_cst_0
  let main_v2 : FVec F S128 .f32 := maximumf main_v1 main_v0
  let main_v3 : FVec F S128x1 .f32 := broadcastInDim S128x1 ![0] bcast_S128_S128x1_0 main_v2
  let main_v4 : FVec F S128x100000 .f32 := broadcastInDim S128x100000 ![0, 1] bcast_S128x1_S128x100000_0_1 main_v3
  let main_v5 : FVec F S128x100000 .f32 := subf main_arg0 main_v4
  let main_v6 : FVec F S128x100000 .f32 := Host.exp main_v5
  let main_cst_1 : FVec F S_ .f32 := constant S_ .f32 0x00000000#32
  let main_v7 : FVec F S128 .f32 := (fun x v => Host.reduceAdd x v reducesTo_S128x100000_S128_d1 h_S_) main_v6 main_cst_1
  let main_v8 : FVec F S128x1 .f32 := broadcastInDim S128x1 ![0] bcast_S128_S128x1_0 main_v7
  let main_v9 : FVec F S128x100000 .f32 := broadcastInDim S128x100000 ![0, 1] bcast_S128x1_S128x100000_0_1 main_v8
  let main_v10 : FVec F S128x100000 .f32 := Host.divf main_v6 main_v9
  let main_v11 : FVec F S128x100000 .f32 := mulf main_v10 main_arg1
  let main_v12 : FVec F S128x100000 .f32 := Host.absf main_arg0
  let main_cst_2 : FVec F S_ .f32 := constant S_ .f32 0x7F800000#32
  let main_v13 : FVec F S128x100000 .f32 := broadcastInDim S128x100000 ![] bcast_S_S128x100000 main_cst_2
  let main_v14 : IVec S128x100000 1 := cmpf .olt main_v12 main_v13
  let main_c : IVec S_ 1 := constantI S_ 1 1#1
  let main_v15 : IVec S_ 1 := (fun x v => Host.reduce IntOp.andi x v reducesTo_S128x100000_S_d0_1 h_S_) main_v14 main_c
  let main_v16 : FVec F S128x100000 .f32 := Host.absf main_arg1
  let main_cst_3 : FVec F S_ .f32 := constant S_ .f32 0x7F800000#32
  let main_v17 : FVec F S128x100000 .f32 := broadcastInDim S128x100000 ![] bcast_S_S128x100000 main_cst_3
  fn_part1 (F := F) main_v11 main_v15 main_v16 main_v17
-- ==== Kernel.lean ====
abbrev S128x100000 : Shape := ⟨2, ![128, 100000]⟩
abbrev S8x100000 : Shape := ⟨2, ![8, 100000]⟩
abbrev S8 : Shape := ⟨1, ![8]⟩
abbrev S8x1 : Shape := ⟨2, ![8, 1]⟩

abbrev nBuf : Space → Nat
  | .hbm => 3
  | .vmem => 6
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S128x100000, .f32⟩
  | .local _ .vmem, ⟨0, _⟩ => ⟨S8x100000, .f32⟩
  | .local _ .vmem, ⟨1, _⟩ => ⟨S8x100000, .f32⟩
  | .local _ .vmem, ⟨2, _⟩ => ⟨S8x100000, .f32⟩
  | .local _ .vmem, ⟨3, _⟩ => ⟨S8x100000, .f32⟩
  | .local _ .vmem, ⟨4, _⟩ => ⟨S8x100000, .f32⟩
  | .local _ .vmem, ⟨5, _⟩ => ⟨S8x100000, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x100000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8x100000_S8x100000_0_0 : ∀ a, (![0, 0] : Fin 2 → Nat) a + S8x100000.size a ≤ S8x100000.size a
  h_S8x100000 : 0 < S8x100000.numel
  reduces_S8x100000_S8 : S8x100000.Reduces [1] S8
  shapeCasts_S8_S8x1 : S8.ShapeCasts S8x1
  broadcasts_S8x1_S8x100000 : S8x1.Broadcasts S8x100000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x100000.size a ≤ S128x100000.size a
  hwx0_0 : ∀ i : grid0.Coords, EltTy.bits .f32 = 32 ∨ (Rect.block (s := S128x100000) S8x100000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x100000.size a ≤ S128x100000.size a
  hwx0_1 : ∀ i : grid0.Coords, EltTy.bits .f32 = 32 ∨ (Rect.block (s := S128x100000) S8x100000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x100000.size a ≤ S128x100000.size a
  hwx0_2 : ∀ i : grid0.Coords, EltTy.bits .f32 = 32 ∨ (Rect.block (s := S128x100000) S8x100000.size (cc0_transform_2 i) (hinb0_2 i)).WholeWords (EltTy.packing .f32)

variable [Facts₀]

abbrev win0_0 : Pipeline.Window sig grid0 :=
  Pipeline.Window.ofSpec (Memref.whole main_arg0) S8x100000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x100000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x100000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩

abbrev nBuf : Space → Nat
  | .hbm => 22
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S_, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S128x1, .f32⟩
  | .hbm, ⟨8, _⟩ => ⟨S128x100000, .f32⟩
  | .hbm, ⟨9, _⟩ => ⟨S128x100000, .f32⟩
  | .hbm, ⟨10, _⟩ => ⟨S128x100000, .f32⟩
  | .hbm, ⟨11, _⟩ => ⟨S_, .f32⟩
  | .hbm, ⟨12, _⟩ => ⟨S128, .f32⟩
  | .hbm, ⟨13, _⟩ => ⟨S128x1, .f32⟩
  | .hbm, ⟨14, _⟩ => ⟨S128x100000, .f32⟩
  | .hbm, ⟨15, _⟩ => ⟨S128x100000, .f32⟩
  | .hbm, ⟨16, _⟩ => ⟨S128x100000, .f32⟩
  | .hbm, ⟨17, _⟩ => ⟨S_, .f32⟩
  | .hbm, ⟨18, _⟩ => ⟨S128, .f32⟩
  | .hbm, ⟨19, _⟩ => ⟨S128x1, .f32⟩
  | .hbm, ⟨20, _⟩ => ⟨S128x100000, .f32⟩
  | .hbm, ⟨21, _⟩ => ⟨S128x100000, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S128x100000_S128_d1 : S128x100000.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x100000_0_1 : S128x1.BroadcastsInDim S128x100000 (![0, 1] : Fin 2 → Fin S128x100000.rank)

variable [Facts₀]

class Facts : Prop extends Facts₀ where

variable [Facts]
-- ==== Proof.MaskedSoftmax.lean ====
/-
  One row of a masked softmax that is renormalised, over the extended reals, in two arrangements.

  For a row `x` of logits and a row `m` of mask weights put `u k = exp (x k - max x)`.
  * The fused arrangement forms the weights `w k = u k * m k` once and returns `w j * (1 / ∑ k, w k)`.
  * The two-step arrangement first normalises, `p k = u k / ∑ l, u l`, masks, `q k = p k * m k`, and
    renormalises, `q j / ∑ k, q k`.
  With `Z = ∑ l, u l` the second divisor is `(∑ k, w k) / Z`, so the two agree as soon as every quantity is a
  real number and that divisor is not zero: both are `w j / ∑ k, w k`. On a row whose divisor IS zero they differ
  (a zero weight gives `0 * (1 / 0) = 0 * ⊤ = 0` on one side and `0 / 0` on the other), which is why the law carries
  the hypothesis. Finiteness is what makes `max x` a real number, `Z` a positive real, and lets the common factor
  `1 / Z` be cancelled.
-/
import Idealize.ShloMosaic.PureOps.Ideal
import Idealize.ShloMosaic.Lib.ValueIdx
import Mathlib.Data.Finset.Fold
import Mathlib.Tactic.FieldSimp
import Mathlib.Tactic.Ring

noncomputable section

open scoped BigOperators

namespace Cert.MaskedSoftmax

open Idealize.ShloMosaic

variable {n : ℕ}

/-- The maximum of a row, folded from `-∞`. -/
def rowMax (x : Fin n → EReal) : EReal := (Finset.univ : Finset (Fin n)).fold max ⊥ x

/-- The unnormalised masked weight `exp (x k - max x) * m k`. -/
def weight (x m : Fin n → EReal) (k : Fin n) : EReal := Ideal.exp (x k - rowMax x) * m k

/-- The fused arrangement: a weight times the reciprocal of the weights' sum. -/
def fused (x m : Fin n → EReal) (j : Fin n) : EReal := weight x m j * Ideal.div 1 (∑ k, weight x m k)

/-- Two fused entries are equal when their rows and their positions are. -/
theorem fused_congr {x x' m m' : Fin n → EReal} {q q' : Fin n} (hx : x = x') (hm : m = m') (hq : q = q') :
    fused x m q = fused x' m' q' := by subst hx hm hq; rfl

/-- The fused arrangement along every row of an `[R, n]` array of logits and one of mask weights: entry `(r, q)` is
    the fused masked softmax of row `r` of the two arrays at `q`. -/
def fusedRows {R : ℕ} (a0 a1 : (⟨2, ![R, n]⟩ : Shape).Idx → EReal) : (⟨2, ![R, n]⟩ : Shape).Idx → EReal :=
  fun i => fused (fun l : Fin n => a0 (ValueIdx.ix2 (i 0 : Fin R) l)) (fun l : Fin n => a1 (ValueIdx.ix2 (i 0 : Fin R) l)) (i 1 : Fin n)

/-- A softmax entry as the two-step arrangement spells it: the row maximum is once more compared with `-∞`, and
    the sum starts from `0`. -/
def soft (x : Fin n → EReal) (k : Fin n) : EReal :=
  Ideal.div (Ideal.exp (x k - max ⊥ (rowMax x))) (0 + ∑ l, Ideal.exp (x l - max ⊥ (rowMax x)))

/-- The divisor of the renormalisation: the sum of the masked softmax entries. -/
def divisor (x m : Fin n → EReal) : EReal := 0 + ∑ k, soft x k * m k

/-- The two-step arrangement: a masked softmax entry over the sum of them all. -/
def renorm (x m : Fin n → EReal) (j : Fin n) : EReal := Ideal.div (soft x j * m j) (divisor x m)

/-- A finite sum of real numbers, taken in the extended reals, is the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The maximum of a non-empty row of real numbers is a real number. -/
theorem rowMax_coe (hn : 0 < n) (xr : Fin n → ℝ) : ∃ M : ℝ, rowMax (fun k => (xr k : EReal)) = (M : EReal) := by
  have h1 : rowMax (fun k => (xr k : EReal)) ≠ ⊥ := by
    unfold rowMax
    exact ne_of_gt ((Finset.lt_fold_max _).mpr (Or.inr ⟨⟨0, hn⟩, Finset.mem_univ _, EReal.bot_lt_coe _⟩))
  have h2 : rowMax (fun k => (xr k : EReal)) ≠ ⊤ := by
    unfold rowMax
    exact ne_of_lt ((Finset.fold_max_lt _).mpr ⟨bot_lt_top, fun k _ => EReal.coe_lt_top _⟩)
  exact ⟨_, (EReal.coe_toReal h2 h1).symm⟩

/-- THE LAW. On a non-empty row of real logits and real mask weights whose renormalisation divisor is not zero, the
    two-step arrangement is the fused one. -/
theorem renorm_eq_fused (hn : 0 < n) (x m : Fin n → EReal) (hx : ∀ k, ∃ r : ℝ, x k = (r : EReal))
    (hm : ∀ k, ∃ r : ℝ, m k = (r : EReal)) (hd : divisor x m ≠ 0) (j : Fin n) : renorm x m j = fused x m j := by
  choose xr hxr using hx
  choose mr hmr using hm
  obtain rfl : x = fun k => (xr k : EReal) := funext hxr
  obtain rfl : m = fun k => (mr k : EReal) := funext hmr
  obtain ⟨M, hM⟩ := rowMax_coe hn xr
  -- the real quantities: u, Z = ∑ u, s = ∑ u * m
  have hu : ∀ k, Ideal.exp ((xr k : EReal) - (M : EReal)) = ((Real.exp (xr k - M) : ℝ) : EReal) := fun k => by
    rw [← EReal.coe_sub]; rfl
  have hZpos : 0 < ∑ l, Real.exp (xr l - M) :=
    Finset.sum_pos (fun l _ => Real.exp_pos _) ⟨⟨0, hn⟩, Finset.mem_univ _⟩
  have hZ : (∑ l, Real.exp (xr l - M)) ≠ 0 := ne_of_gt hZpos
  -- a softmax entry is the real u k / Z
  have hsoft : ∀ k, soft (fun k => (xr k : EReal)) k = ((Real.exp (xr k - M) * (1 / ∑ l, Real.exp (xr l - M)) : ℝ) : EReal) := fun k => by
    unfold soft
    rw [hM, max_eq_right bot_le]
    simp only [hu, zero_add, coe_sum]
    rw [Ideal.div_coe hZ, ← EReal.coe_mul]
  -- the divisor is the real s / Z
  have hdiv : divisor (fun k => (xr k : EReal)) (fun k => (mr k : EReal))
      = ((∑ k, Real.exp (xr k - M) * (1 / ∑ l, Real.exp (xr l - M)) * mr k : ℝ) : EReal) := by
    unfold divisor
    simp only [hsoft, ← EReal.coe_mul, zero_add, coe_sum]
  have hS : (∑ k, Real.exp (xr k - M) * (1 / ∑ l, Real.exp (xr l - M)) * mr k) ≠ 0 := fun h0 => hd (by rw [hdiv, h0]; rfl)
  have hSs : (∑ k, Real.exp (xr k - M) * (1 / ∑ l, Real.exp (xr l - M)) * mr k)
      = (∑ k, Real.exp (xr k - M) * mr k) * (1 / ∑ l, Real.exp (xr l - M)) := by
    rw [Finset.sum_mul]; exact Finset.sum_congr rfl fun k _ => by ring
  have hs : (∑ k, Real.exp (xr k - M) * mr k) ≠ 0 := fun h0 => hS (by rw [hSs, h0, zero_mul])
  -- both sides as real numbers
  have hL : renorm (fun k => (xr k : EReal)) (fun k => (mr k : EReal)) j
      = ((Real.exp (xr j - M) * (1 / ∑ l, Real.exp (xr l - M)) * mr j
          * (1 / ∑ k, Real.exp (xr k - M) * (1 / ∑ l, Real.exp (xr l - M)) * mr k) : ℝ) : EReal) := by
    unfold renorm
    rw [hdiv, Ideal.div_coe hS, hsoft, ← EReal.coe_mul, ← EReal.coe_mul]
  have hR : fused (fun k => (xr k : EReal)) (fun k => (mr k : EReal)) j
      = ((Real.exp (xr j - M) * mr j * (1 * (1 / ∑ k, Real.exp (xr k - M) * mr k)) : ℝ) : EReal) := by
    unfold fused weight
    rw [hM]
    simp only [hu, ← EReal.coe_mul, coe_sum]
    rw [Ideal.div_coe hs, ← EReal.coe_one, ← EReal.coe_mul, ← EReal.coe_mul]
  rw [hL, hR, hSs]
  congr 1
  field_simp

end Cert.MaskedSoftmax

end
-- ==== Proof.LibLayout.lean ====
/-
  Column forms of three layout operations and a lane sum, read at an index written by coordinates. They complete
  the row forms the library already has, for bodies that keep a reduced axis as a unit axis
  (`sum(…, keepdims=True)`): a column [a,1] re-read as a row [1,a], a vector [a] re-read as a column [a,1], a
  column [a,1] repeated along a new second axis [a,b], and the sum along the second axis of an [a,b] array.
-/
import Idealize.ShloMosaic.Lib.Pipeline.Value
import Idealize.ShloMosaic.Lib.ValueIdx
import Idealize.ShloMosaic.PureOps.Ideal.Laws

namespace Cert.LibLayout

open Idealize.ShloMosaic Idealize.ShloMosaic.ValueIdx

variable {α : Type}

/-- An `[a, 1]` column cast to a `[1, a]` row reads, at `(u, i)`, the column at `(i, 0)`: both have row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals the sum of an `[a, b]` array along its second axis, read at row `p`, is the sum over the
    `b` entries of that row. -/
theorem lane_sum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction .add [1] ⟨1, ![a]⟩ src acc h hφ hacc (ix1 p) = ∑ l : Fin b, src (ix2 p l) := by
  refine (Ideal.multiReduction_add_single src acc h hφ hacc (ix1 p)).trans ?_
  show ∑ l : Fin b, src (h.lift (ix1 p) l) = _
  refine Finset.sum_congr rfl fun l _ => congrArg src ?_
  funext d
  apply Fin.ext
  match d with
  | ⟨0, _⟩ => rfl
  | ⟨1, _⟩ => rfl

end Cert.LibLayout
-- ==== Proof.LibLaneMax.lean ====
/-
  The maximum along the second axis of an `[a, b]` array of extended reals, read at a row written by its coordinate:
  as a kernel's lane reduction takes it and as a host reduction with a `max` body takes it. Both are the fold of
  `max`, from the starting value, over the `b` entries of the row — the same fold, so the two programs' row maxima
  meet without unfolding either reduction.
-/
import Idealize.ShloMosaic.Lib.Pipeline.Value
import Idealize.ShloMosaic.Lib.ValueIdx
import Idealize.ShloMosaic.PureOps.Ideal.Laws

namespace Cert.LibLaneMax

open Idealize.ShloMosaic Idealize.ShloMosaic.ValueIdx

/-- The index a one-axis reduction over the second axis inserts: row `p` with `l` put on the dropped axis is `(p, l)`. -/
theorem lift_row {a b : ℕ} (h : (⟨2, ![a, b]⟩ : Shape).Reduces [1] ⟨1, ![a]⟩) (p : Fin a) (l : Fin b) :
    h.lift (ix1 p) l = ix2 p l := by
  funext d
  apply Fin.ext
  match d with
  | ⟨0, _⟩ => rfl
  | ⟨1, _⟩ => rfl

/-- At the extended reals the maximum of an `[a, b]` array along its second axis, read at row `p`, is the fold of
    `max` from the accumulator's value over the `b` entries of that row. -/
theorem lane_max_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun l => src (ix2 p l)) := by
  refine (Ideal.multiReduction_maximumf_single src acc h hφ hacc (ix1 p)).trans ?_
  show (Finset.univ : Finset (Fin b)).fold max (Ideal.ofBits .f32 acc) (fun l => src (h.lift (ix1 p) l)) = _
  exact congrArg (fun f => (Finset.univ : Finset (Fin b)).fold max (Ideal.ofBits .f32 acc) f)
    (funext fun l => congrArg src (lift_row h p l))

/-- The host's reduction of an `[a, b]` array of extended reals along its second axis with a `max` body, read at row
    `p`: the fold of `max` from the initial value's element over the `b` entries of that row. -/
theorem host_row_max_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = (Finset.univ : Finset (Fin b)).fold max (init (Shape.Idx.first hu)) (fun l => x (ix2 p l)) := by
  refine (Host.reduce_eq_fold_single (FloatOps.maximumf (F := Ideal) (φ := .f32)) x init h' h hu (ix1 p)).trans ?_
  show (Finset.univ : Finset (Fin b)).fold max (init (Shape.Idx.first hu)) (fun l => x (h.lift (ix1 p) l)) = _
  exact congrArg (fun f => (Finset.univ : Finset (Fin b)).fold max (init (Shape.Idx.first hu)) f)
    (funext fun l => congrArg x (lift_row h p l))

/-- The f32 word of `-∞` is the bottom of the extended reals. -/
theorem ofBits_neg_inf_f32 : Ideal.ofBits .f32 0xFF800000#32 = ⊥ := by simp [Ideal.ofBits, Ideal.ieee]

end Cert.LibLaneMax
-- ==== Proof.KernelBlockRow.lean ====
/-
  One row of what the kernel body leaves in its output block, at the extended reals.

  The body loads an `[8, 100000]` block `P0` of logits and the matching block `P1` of mask weights, takes each row's
  maximum, forms the weights `exp (P0 - max) * P1`, sums each row, and stores every weight times the reciprocal of
  its row's sum. The generated value leg already reads the stored block index by index (`E2`), keeping the two row
  reductions whole. Here the reductions are read at a row: the maximum is the fold of `max` from `-∞` over the row,
  the sum is the sum over the row of the weights, so entry `(p, q)` of the block is the fused masked softmax of
  row `p` of the two loads at `q`.
-/
import proofs.«143617_g27814208209224_cont_9to1_763_2_alg».proof.Proof.Gen.KernelIdeal.Value
import proofs.«143617_g27814208209224_cont_9to1_763_2_alg».proof.Proof.LibLayout
import proofs.«143617_g27814208209224_cont_9to1_763_2_alg».proof.Proof.LibLaneMax
import proofs.«143617_g27814208209224_cont_9to1_763_2_alg».proof.Proof.MaskedSoftmax
import Idealize.ShloMosaic.Lib.IdealHost

noncomputable section

namespace Cert.KernelIdeal.BlockRow

open Cert.KernelIdeal Cert.KernelIdeal.Gen Idealize.ShloMosaic Idealize.ShloMosaic.ValueIdx
open Cert.MaskedSoftmax

/-- The maximum of row `p` of a loaded block, as the body takes it, is the row's maximum folded from `-∞`. -/
theorem block_max (P0 : Vec Ideal S8x100000 .f32) (p : Fin 8) :
    (multiReduction (F := Ideal) .maximumf [1] S8 P0 0xFF800000#32 reduces_S8x100000_S8 (.inl rfl) rfl) (ix1 p)
      = rowMax (fun l : Fin 100000 => P0 (ix2 p l)) := by
  refine (Cert.LibLaneMax.lane_max_apply P0 0xFF800000#32 reduces_S8x100000_S8 (.inl rfl) rfl p).trans ?_
  rw [Cert.LibLaneMax.ofBits_neg_inf_f32]
  rfl

/-- Entry `(p, l)` of the body's weights `exp (P0 - max) * P1` is the masked weight of row `p` at `l`. -/
theorem block_weight (P0 P1 : Vec Ideal S8x100000 .f32) (p : Fin 8) (l : Fin 100000) :
    (mulf (F := Ideal) (exp (F := Ideal) (subf (F := Ideal) P0 (broadcastTo S8x100000 (shapeCast S8x1 (multiReduction (F := Ideal) .maximumf [1] S8 P0 0xFF800000#32 reduces_S8x100000_S8 (.inl rfl) rfl) shapeCasts_S8_S8x1) broadcasts_S8x1_S8x100000))) P1) (ix2 p l)
      = weight (fun l : Fin 100000 => P0 (ix2 p l)) (fun l : Fin 100000 => P1 (ix2 p l)) l := by
  show Ideal.exp (P0 (ix2 p l) - (broadcastTo S8x100000 (shapeCast S8x1 (multiReduction (F := Ideal) .maximumf [1] S8 P0 0xFF800000#32 reduces_S8x100000_S8 (.inl rfl) rfl) shapeCasts_S8_S8x1) broadcasts_S8x1_S8x100000) (ix2 p l)) * P1 (ix2 p l) = _
  rw [Cert.LibLayout.broadcastTo_a1_ab_apply, Cert.LibLayout.shapeCast_a_a1_apply, block_max]
  rfl

/-- The sum of row `p` of the body's weights is the sum of the row's masked weights. -/
theorem block_sum (P0 P1 : Vec Ideal S8x100000 .f32) (p : Fin 8) :
    (multiReduction (F := Ideal) .add [1] S8 (mulf (F := Ideal) (exp (F := Ideal) (subf (F := Ideal) P0 (broadcastTo S8x100000 (shapeCast S8x1 (multiReduction (F := Ideal) .maximumf [1] S8 P0 0xFF800000#32 reduces_S8x100000_S8 (.inl rfl) rfl) shapeCasts_S8_S8x1) broadcasts_S8x1_S8x100000))) P1) 0x00000000#32 reduces_S8x100000_S8 (.inl rfl) rfl) (ix1 p)
      = ∑ l : Fin 100000, weight (fun l : Fin 100000 => P0 (ix2 p l)) (fun l : Fin 100000 => P1 (ix2 p l)) l := by
  refine (Cert.LibLayout.lane_sum_apply _ 0x00000000#32 reduces_S8x100000_S8 (.inl rfl) rfl p).trans ?_
  exact Finset.sum_congr rfl fun l _ => block_weight P0 P1 p l

/-- ENTRY `(p, q)` OF THE STORED BLOCK is the fused masked softmax of row `p` of the two loads, at `q`. -/
theorem block_entry (P0 P1 : Vec Ideal S8x100000 .f32) (p : Fin 8) (q : Fin 100000) :
    Value.E2 (F := Ideal) P0 P1 (ix2 p q)
      = fused (fun l : Fin 100000 => P0 (ix2 p l)) (fun l : Fin 100000 => P1 (ix2 p l)) q := by
  have e0 : Value.ix2_0 (ix2 p q : S8x100000.Idx) = ix2 p q := by
    funext a; match a with | ⟨0, _⟩ => rfl | ⟨1, _⟩ => rfl
  have e1 : Value.ix2_1 (ix2 p q : S8x100000.Idx) = ix1 p := by
    funext a; match a with | ⟨0, _⟩ => rfl
  have e2 : Value.ix2_2 (ix2 p q : S8x100000.Idx) = ix2 p q := by
    funext a; match a with | ⟨0, _⟩ => rfl | ⟨1, _⟩ => rfl
  have e3 : Value.ix2_3 (ix2 p q : S8x100000.Idx) = ix1 p := by
    funext a; match a with | ⟨0, _⟩ => rfl
  unfold Value.E2
  rw [e0, e1, e2, e3, block_max, block_sum]
  rw [Ideal.ofBits_def, Ideal.ofBits_one_f32]
  rfl

end Cert.KernelIdeal.BlockRow

end
-- ==== Proof.KernelWholeArray.lean ====
/-
  From the kernel's blocks to its whole result array, at the extended reals.

  The grid has 16 points; point `t` stages rows `8 t … 8 t + 7` of the logits and of the mask weights (all 100000
  columns) and writes back the same rows of the result. What it writes back is the fused masked softmax of each
  staged row (the block-row reading), and a staged row IS the argument array's row `8 t + p`, so the block written
  back is block `t` of ONE whole-array function: the fused arrangement along every row of the two argument arrays.
  The sixteen blocks tile the 128 rows (row `r` lies in the block of point `r / 8`), so after the run the result
  array is that function.
-/
import proofs.«143617_g27814208209224_cont_9to1_763_2_alg».proof.Proof.Gen.KernelIdeal.Value
import proofs.«143617_g27814208209224_cont_9to1_763_2_alg».proof.Proof.KernelBlockRow

noncomputable section

namespace Cert.KernelIdeal.WholeArray

open Cert.KernelIdeal Cert.KernelIdeal.Gen Idealize.ShloMosaic Idealize.ShloMosaic.TcCoe Idealize.SL.Sem
open Idealize.ShloMosaic.ValueIdx
open Idealize.ShloMosaic.Pipeline (Dat)
open Cert.MaskedSoftmax

variable (m : (ℓ : Loc nD τ sig) → Buf (Elt Ideal) ℓ) (ρ : Dev nD → PrngReg)

/-- The body's rectangles start at the block's origin. -/
theorem origin : (![0, 0] : Fin 2 → Nat) = fun _ => 0 := funext fun a => by fin_cases a <;> rfl

/-- The printed index maps, decided over the 16 grid points: both input windows stage the block of rows the output
    window writes back, every window spans all columns, and point `t`'s block of rows is the `t`-th. -/
theorem block_of_point : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) = t.val :=
  (by decide +kernel : ∀ t : Fin grid0.N, _)

/-- WHAT POINT `t` WRITES BACK is block `t` of the fused arrangement along the rows of the argument arrays. -/
theorem flushed_eq (c : Dev nD) (t : Fin cfg0.N) :
    (dats m 0 c).flushed 2 t
      = ((cfg0.win 2).blk t).view.read (Elt Ideal) (fusedRows (R := 128) (n := 100000) (V m c main_arg0) (V m c main_arg1)) := by
  show (cfg0.win 2).cut (grid0.coords t) ((dats m 0 c).after 2 t) = _
  rw [after0_2]
  unfold out0_2
  rw [View.canon_unit_zero origin]
  simp only [View.ld_unit_zero (S := S8x100000) origin]
  obtain ⟨e0, e1, e2, e3, e4, e5⟩ := block_of_point t
  funext j
  obtain ⟨p, q, rfl⟩ : ∃ (p : Fin 8) (q : Fin 100000), j = ix2 p q := ⟨j 0, j 1, eq_ix2 j⟩
  show k0_pay1 (iblk m c 0 t) (iblk m c 1 t) (ix2 p q)
      = fusedRows (R := 128) (n := 100000) (V m c main_arg0) (V m c main_arg1) (((cfg0.win 2).blk t).view.emb (ix2 p q))
  refine (Value.piece2_0 (F := Ideal) (iblk m c 0 t) (iblk m c 1 t) (ix2 p q)).trans ?_
  have hr : r0_0.idx (ix2 p q : S8x100000.Idx) = ix2 p q := by
    funext a; apply Fin.ext
    match a with
    | ⟨0, _⟩ => show 0 + 1 * p.val = p.val; omega
    | ⟨1, _⟩ => show 0 + 1 * q.val = q.val; omega
  refine (congrArg (Value.E2 (F := Ideal) (iblk m c 0 t) (iblk m c 1 t)) hr).trans ?_
  refine (Cert.KernelIdeal.BlockRow.block_entry (iblk m c 0 t) (iblk m c 1 t) p q).trans ?_
  refine fused_congr (funext fun l => ?_) (funext fun l => ?_) ?_
  · show V m c main_arg0 (((cfg0.win 0).blk t).view.emb (ix2 p l))
        = V m c main_arg0 (ix2 ((((cfg0.win 2).blk t).view.emb (ix2 p q)) 0 : Fin 128) l)
    refine congrArg (V m c main_arg0) ?_
    funext a; apply Fin.ext
    match a with
    | ⟨0, _⟩ => show win0_0.index t (0 : Fin 2) * 8 + 1 * p.val = win0_2.index t (0 : Fin 2) * 8 + 1 * p.val; omega
    | ⟨1, _⟩ => show win0_0.index t (1 : Fin 2) * 100000 + 1 * l.val = l.val; omega
  · show V m c main_arg1 (((cfg0.win 1).blk t).view.emb (ix2 p l))
        = V m c main_arg1 (ix2 ((((cfg0.win 2).blk t).view.emb (ix2 p q)) 0 : Fin 128) l)
    refine congrArg (V m c main_arg1) ?_
    funext a; apply Fin.ext
    match a with
    | ⟨0, _⟩ => show win0_1.index t (0 : Fin 2) * 8 + 1 * p.val = win0_2.index t (0 : Fin 2) * 8 + 1 * p.val; omega
    | ⟨1, _⟩ => show win0_1.index t (1 : Fin 2) * 100000 + 1 * l.val = l.val; omega
  · apply Fin.ext
    show q.val = win0_2.index t (1 : Fin 2) * 100000 + 1 * q.val
    omega

/-- An index of the array is in point `t`'s block iff each coordinate is in the block's range on its axis. -/
theorem mem_blk (t : Fin cfg0.N) (i : S128x100000.Idx) :
    i ∈ ((cfg0.win 2).blk t).view.set ↔ ∀ a : Fin 2, win0_2.index t a * S8x100000.size a ≤ (i a).val ∧ (i a).val < win0_2.index t a * S8x100000.size a + S8x100000.size a := by
  show i ∈ ((View.whole main_v0).slice (win0_2.rect t)).set ↔ _
  rw [View.set_slice_whole, Rect.mem_set_unit]
  exact Iff.rfl

/-- THE BLOCKS TILE THE ARRAY: row `r` lies in the block of point `r / 8`. -/
theorem cover (i : S128x100000.Idx) :
    ∃ t : Fin cfg0.N, (cfg0.win 2).flush t = true ∧ i ∈ ((cfg0.win 2).blk t).view.set := by
  have hi0 : (i 0).val < 128 := (i 0).isLt
  have hi1 : (i 1).val < 100000 := (i 1).isLt
  have hlt : (i 0).val / 8 < cfg0.N := by show (i 0).val / 8 < grid0.N; rw [N_0]; omega
  obtain ⟨e0, e1, e2, e3, e4, e5⟩ := block_of_point ⟨(i 0).val / 8, hlt⟩
  have e5' : win0_2.index ⟨(i 0).val / 8, hlt⟩ (0 : Fin 2) = (i 0).val / 8 := e5
  refine ⟨⟨(i 0).val / 8, hlt⟩, flush0_2 _, ?_⟩
  rw [mem_blk]
  intro a
  match a with
  | ⟨0, _⟩ =>
    show win0_2.index ⟨(i 0).val / 8, hlt⟩ (0 : Fin 2) * 8 ≤ (i 0).val ∧ (i 0).val < win0_2.index ⟨(i 0).val / 8, hlt⟩ (0 : Fin 2) * 8 + 8
    omega
  | ⟨1, _⟩ =>
    show win0_2.index ⟨(i 0).val / 8, hlt⟩ (1 : Fin 2) * 100000 ≤ (i 1).val ∧ (i 1).val < win0_2.index ⟨(i 0).val / 8, hlt⟩ (1 : Fin 2) * 100000 + 100000
    omega

/-- THE RESULT ARRAY after the run: the fused arrangement along every row of the two argument arrays. -/
theorem final (c : Dev nD) :
    (dats m 0 c).arrAt 2 cfg0.N
      = fusedRows (R := 128) (n := 100000) (m ((c : Thread nD τ).loc main_arg0)) (m ((c : Thread nD τ).loc main_arg1)) :=
  (dats m 0 c).arrAt_eq_of_cover 2 _ (fun t _ => flushed_eq m c t) cover

/-- The kernel's run, read: every weakly fair execution ends with the result array at the fused arrangement along the
    rows of the argument arrays, and the argument arrays as they were. -/
theorem run : θ_run defs (onTc (τ := τ) (main (F := Ideal))) ⟨m, fun _ => 0, ρ⟩ fun r => ∀ c : Dev nD,
      r.2.mem ((c : Thread nD τ).loc main_v0)
          = fusedRows (R := 128) (n := 100000) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.WholeArray

end
-- ==== Proof.ReferenceRow.lean ====
/-
  One row of the reference's result, and of its renormalisation divisor, at the extended reals.

  The reference computes a softmax along the rows of the `[128, 100000]` logits (row maximum, shifted exponentials,
  their row sum, the quotient), multiplies by the mask weights, sums each row again and divides by that sum. The
  generated reading lemmas give every operation at an index from its operands at an index; chained along row `r`
  they say: entry `(r, q)` of the result is the two-step masked softmax of row `r` of the two arguments at `q`,
  and entry `r` of the last row sum is that arrangement's divisor. The one operation the generated lemmas leave
  whole, the row maximum, is a host reduction with a `max` body over the second axis: the fold of `max` from `-∞`.
-/
import proofs.«143617_g27814208209224_cont_9to1_763_2_alg».proof.Proof.Gen.ReferenceIdeal.Read
import proofs.«143617_g27814208209224_cont_9to1_763_2_alg».proof.Proof.LibLaneMax
import proofs.«143617_g27814208209224_cont_9to1_763_2_alg».proof.Proof.MaskedSoftmax

noncomputable section

namespace Cert.ReferenceIdeal.RowValue

open Cert.ReferenceIdeal Cert.ReferenceIdeal.Gen Cert.ReferenceIdeal.Read Idealize.ShloMosaic Idealize.ShloMosaic.ValueIdx
open Cert.MaskedSoftmax

variable (x0 x1 : (⟨S128x100000, .f32⟩ : BufTy).Contents (Elt Ideal))

/-- Row `r` of the logits and of the mask weights. -/
abbrev row (x : (⟨S128x100000, .f32⟩ : BufTy).Contents (Elt Ideal)) (r : Fin 128) : Fin 100000 → EReal :=
  fun l => x (ix2 r l)

/-- The shift of row `r`: the row maximum folded from `-∞`, compared once more with `-∞`. -/
theorem shift_row (r : Fin 128) : val_main_v2 (F := Ideal) x0 (ix1 r) = max ⊥ (rowMax (row x0 r)) := by
  have h0 : val_main_v0 (F := Ideal) x0 (ix1 r) = rowMax (row x0 r) := by
    unfold val_main_v0
    refine (Cert.LibLaneMax.host_row_max_apply x0 (val_main_cst (F := Ideal)) reducesTo_S128x100000_S128_d1 (by decide) h_S_ r).trans ?_
    rw [val_main_cst_apply, Ideal.ofBits_def, Cert.LibLaneMax.ofBits_neg_inf_f32]
    rfl
  rw [val_main_v2_apply, val_main_v1_apply, val_main_cst_0_apply, h0, Ideal.ofBits_def, Cert.LibLaneMax.ofBits_neg_inf_f32]
  rfl

/-- The shifted exponential at `(r, l)`. -/
theorem exp_row (r : Fin 128) (l : Fin 100000) :
    val_main_v6 (F := Ideal) x0 (ix2 r l) = Ideal.exp (row x0 r l - max ⊥ (rowMax (row x0 r))) := by
  have e : idx_main_v3 (idx_main_v4 (ix2 r l : S128x100000.Idx)) = ix1 r := by
    funext a; match a with | ⟨0, _⟩ => rfl
  rw [val_main_v6_apply, val_main_v5_apply, val_main_v4_apply, val_main_v3_apply, e, shift_row]
  rfl

/-- The row sum of the shifted exponentials, from zero. -/
theorem expsum_row (r : Fin 128) :
    val_main_v7 (F := Ideal) x0 (ix1 r) = 0 + ∑ l : Fin 100000, Ideal.exp (row x0 r l - max ⊥ (rowMax (row x0 r))) := by
  have e : ∀ k : Fin 100000, idx_main_v7 (ix1 r : S128.Idx) k = ix2 r k := fun k => by
    funext a; match a with | ⟨0, _⟩ => rfl | ⟨1, _⟩ => rfl
  rw [val_main_v7_apply, val_main_cst_1_apply, Ideal.ofBits_def, Ideal.ofBits_zero_f32]
  exact congrArg (0 + ·) (Finset.sum_congr rfl fun k _ => by rw [e k, exp_row])

/-- The softmax entry at `(r, l)`. -/
theorem soft_row (r : Fin 128) (l : Fin 100000) : val_main_v10 (F := Ideal) x0 (ix2 r l) = soft (row x0 r) l := by
  have e : idx_main_v8 (idx_main_v9 (ix2 r l : S128x100000.Idx)) = ix1 r := by
    funext a; match a with | ⟨0, _⟩ => rfl
  rw [val_main_v10_apply, val_main_v9_apply, val_main_v8_apply, e, expsum_row, exp_row]
  rfl

/-- The masked softmax entry at `(r, l)`. -/
theorem masked_row (r : Fin 128) (l : Fin 100000) :
    val_main_v11 (F := Ideal) x0 x1 (ix2 r l) = soft (row x0 r) l * row x1 r l := by
  rw [val_main_v11_apply, soft_row]
  rfl

/-- ENTRY `r` OF THE LAST ROW SUM is the renormalisation divisor of row `r`. -/
theorem divisor_row (r : Fin 128) : val_main_v12 (F := Ideal) x0 x1 (ix1 r) = divisor (row x0 r) (row x1 r) := by
  have e : ∀ k : Fin 100000, idx_main_v12 (ix1 r : S128.Idx) k = ix2 r k := fun k => by
    funext a; match a with | ⟨0, _⟩ => rfl | ⟨1, _⟩ => rfl
  rw [val_main_v12_apply, val_main_cst_2_apply, Ideal.ofBits_def, Ideal.ofBits_zero_f32]
  exact congrArg (0 + ·) (Finset.sum_congr rfl fun k _ => by rw [e k, masked_row])

/-- ENTRY `(r, q)` OF THE RESULT is the two-step masked softmax of row `r` of the two arguments, at `q`. -/
theorem result_row (r : Fin 128) (q : Fin 100000) :
    val_main_v15 (F := Ideal) x0 x1 (ix2 r q) = renorm (row x0 r) (row x1 r) q := by
  have e : idx_main_v13 (idx_main_v14 (ix2 r q : S128x100000.Idx)) = ix1 r := by
    funext a; match a with | ⟨0, _⟩ => rfl
  rw [val_main_v15_apply, val_main_v14_apply, val_main_v13_apply, e, divisor_row, masked_row]
  rfl

end Cert.ReferenceIdeal.RowValue

end
-- ==== Proof.Domain.lean ====
/-
  What the precondition says of the two argument arrays, at the extended reals.

  The precondition is the conjunction of three `all`s: every logit has absolute value below `+∞`; every mask weight
  has; and, in every row, the sum of the masked softmax entries — the very sum the reference divides by, computed by
  the same operations in the same order — is not zero. Read back element by element: every logit and every mask
  weight is a real number, and the reference's last row sum is not zero at any row. The third fact is what keeps the
  reference's final division inside its domain; the law that joins the two programs needs exactly it.
-/
import proofs.«143617_g27814208209224_cont_9to1_763_2_alg».proof.Pre_finite_inputs
import proofs.«143617_g27814208209224_cont_9to1_763_2_alg».proof.Proof.Gen.ReferenceIdeal.Read
import Idealize.ShloMosaic.Lib.ReduceAll
import Idealize.ShloMosaic.Lib.ValueIdx

noncomputable section

namespace Cert.Pre_finite_inputs.Domain

open Cert.Pre_finite_inputs Cert.Pre_finite_inputs.Facts Idealize.ShloMosaic Idealize.ShloMosaic.ValueIdx

variable [Cert.Pre_finite_inputs.Facts]

/-- The scalar shape has one index. -/
instance : Subsingleton S_.Idx := ⟨fun a b => funext fun d => d.elim0⟩

/-- A comparison bit that is one says the comparison holds: strictly below. -/
theorem lt_of_cmp_olt {x y : EReal} (h : Ideal.cmp .olt x y = 1#1) : x < y := by
  by_contra hn
  have h0 : Ideal.cmp .olt x y = 0#1 := by simp [Ideal.cmp, hn]
  rw [h0] at h
  exact absurd h (by decide)

/-- A comparison bit that is one says the comparison holds: different. -/
theorem ne_of_cmp_une {x y : EReal} (h : Ideal.cmp .une x y = 1#1) : x ≠ y := by
  intro hxy
  have h0 : Ideal.cmp .une x y = 0#1 := by simp [Ideal.cmp, hxy]
  rw [h0] at h
  exact absurd h (by decide)

/-- An extended real whose absolute value is below `+∞` is a real number. -/
theorem real_of_abs_lt_top {x : EReal} (h : max x (-x) < ⊤) : ∃ r : ℝ, x = (r : EReal) := by
  induction x using EReal.rec with
  | bot => simp at h
  | coe r => exact ⟨r, rfl⟩
  | top => simp at h

/-- The f32 word of `+∞` is the top of the extended reals. -/
theorem ofBits_pos_inf_f32 : Ideal.ofBits .f32 0x7F800000#32 = ⊤ := by simp [Ideal.ofBits, Ideal.ieee]

/-- THE PRECONDITION, READ BACK: both argument arrays hold real numbers, and the reference's renormalisation
    divisor — the row sum of its masked softmax entries — is not zero in any row. -/
theorem decode (x0 x1 : FVec Ideal S128x100000 .f32) (h : fn (F := Ideal) x0 x1 = fun _ => 1#1) :
    (∀ i, ∃ r : ℝ, x0 i = (r : EReal)) ∧ (∀ i, ∃ r : ℝ, x1 i = (r : EReal))
      ∧ ∀ r : Fin 128, Cert.ReferenceIdeal.Read.val_main_v12 (F := Ideal) x0 x1 (ix1 r) ≠ 0 := by
  have h0 := congrFun h ix0
  dsimp only [fn, fn_part1] at h0
  obtain ⟨h12, h3⟩ := IntOp.andi_eq_one.mp h0
  obtain ⟨h1, h2⟩ := IntOp.andi_eq_one.mp h12
  have a1 := Host.reduce_andi_all _ _ _ _ _ h1
  have a2 := Host.reduce_andi_all _ _ _ _ _ h2
  have a3 := Host.reduce_andi_all _ _ _ _ _ h3
  refine ⟨fun i => ?_, fun i => ?_, fun r => ?_⟩
  · have b := a1 i
    rw [cmpf_apply] at b
    have e : broadcastInDim S128x100000 ![] bcast_S_S128x100000 (constant (F := Ideal) S_ .f32 0x7F800000#32) i = Ideal.ofBits .f32 0x7F800000#32 :=
      broadcastInDim_apply _ _ _ i (fun a => a.elim0) (fun a => a.elim0)
    rw [e, ofBits_pos_inf_f32] at b
    have b' : Ideal.cmp .olt (max (x0 i) (-(x0 i))) ⊤ = 1#1 := b
    exact real_of_abs_lt_top (lt_of_cmp_olt b')
  · have b := a2 i
    rw [cmpf_apply] at b
    have e : broadcastInDim S128x100000 ![] bcast_S_S128x100000 (constant (F := Ideal) S_ .f32 0x7F800000#32) i = Ideal.ofBits .f32 0x7F800000#32 :=
      broadcastInDim_apply _ _ _ i (fun a => a.elim0) (fun a => a.elim0)
    rw [e, ofBits_pos_inf_f32] at b
    have b' : Ideal.cmp .olt (max (x1 i) (-(x1 i))) ⊤ = 1#1 := b
    exact real_of_abs_lt_top (lt_of_cmp_olt b')
  · have b := a3 (ix1 r)
    rw [cmpf_apply] at b
    have e : broadcastInDim S128 ![] bcast_S_S128 (constant (F := Ideal) S_ .f32 0x00000000#32) (ix1 r) = Ideal.ofBits .f32 0x00000000#32 :=
      broadcastInDim_apply _ _ _ _ (fun a => a.elim0) (fun a => a.elim0)
    rw [e, Ideal.ofBits_zero_f32] at b
    have b' : Ideal.cmp .une (Cert.ReferenceIdeal.Read.val_main_v12 (F := Ideal) x0 x1 (ix1 r)) 0 = 1#1 := b
    exact ne_of_cmp_une b'

end Cert.Pre_finite_inputs.Domain

end
-- ==== Proof.lean ====
/-
  A fused masked softmax against its two-step reference, over the extended reals.

  Both programs take `[128, 100000]` logits `x` and mask weights `m`. Per row, with `u k = exp (x k - max x)`:
  the kernel forms the weights `w k = u k * m k` once and writes `w j * (1 / ∑ k, w k)`; the reference normalises
  first (`p k = u k / ∑ l, u l`), masks (`q k = p k * m k`) and renormalises (`q j / ∑ k, q k`). The reference's
  divisor is `(∑ k, w k) / ∑ l, u l`, so on real inputs the two agree exactly where that divisor is not zero —
  both are `w j / ∑ k, w k` — and differ where it is zero (there a zero weight gives `0 * (1 / 0) = 0` in the kernel
  and `0 / 0` in the reference). The precondition therefore says: every input is finite, and in every row the
  reference's divisor is not zero; the reference divides by zero outside it.

  The pieces: the row law (MaskedSoftmax); the kernel's stored block row by row (KernelBlockRow) and its sixteen
  blocks as one array function (KernelWholeArray); the reference's result and divisor row by row (ReferenceRow);
  the precondition read back (Domain). The idealization changes no operation, so the kernel's word-level program
  and its idealized one are the same text and nothing is owed between them. The frames of the two kernels are the
  generated ones; the reference's frame is its generated run with the result dropped.
-/
import proofs.«143617_g27814208209224_cont_9to1_763_2_alg».proof.Defs
import proofs.«143617_g27814208209224_cont_9to1_763_2_alg».proof.Proof.Gen.Kernel
import proofs.«143617_g27814208209224_cont_9to1_763_2_alg».proof.Proof.Gen.Kernel.Skeleton
import proofs.«143617_g27814208209224_cont_9to1_763_2_alg».proof.Proof.Gen.Kernel.Launch
import proofs.«143617_g27814208209224_cont_9to1_763_2_alg».proof.Proof.Gen.Kernel.Points
import proofs.«143617_g27814208209224_cont_9to1_763_2_alg».proof.Proof.Gen.Kernel.Frame
import proofs.«143617_g27814208209224_cont_9to1_763_2_alg».proof.Proof.Gen.KernelIdeal
import proofs.«143617_g27814208209224_cont_9to1_763_2_alg».proof.Proof.Gen.KernelIdeal.Skeleton
import proofs.«143617_g27814208209224_cont_9to1_763_2_alg».proof.Proof.Gen.KernelIdeal.Launch
import proofs.«143617_g27814208209224_cont_9to1_763_2_alg».proof.Proof.Gen.KernelIdeal.Points
import proofs.«143617_g27814208209224_cont_9to1_763_2_alg».proof.Proof.Gen.KernelIdeal.Frame
import proofs.«143617_g27814208209224_cont_9to1_763_2_alg».proof.Proof.Gen.ReferenceIdeal
import proofs.«143617_g27814208209224_cont_9to1_763_2_alg».proof.Proof.Gen.Pre_finite_inputs
import proofs.«143617_g27814208209224_cont_9to1_763_2_alg».proof.Proof.Gen.KernelIdeal.Value
import proofs.«143617_g27814208209224_cont_9to1_763_2_alg».proof.Proof.Gen.ReferenceIdeal.Run
import proofs.«143617_g27814208209224_cont_9to1_763_2_alg».proof.Proof.Gen.ReferenceIdeal.Read
import proofs.«143617_g27814208209224_cont_9to1_763_2_alg».proof.Proof.MaskedSoftmax
import proofs.«143617_g27814208209224_cont_9to1_763_2_alg».proof.Proof.KernelWholeArray
import proofs.«143617_g27814208209224_cont_9to1_763_2_alg».proof.Proof.ReferenceRow
import proofs.«143617_g27814208209224_cont_9to1_763_2_alg».proof.Proof.Domain
import Idealize.ShloMosaic.Adequacy
import Idealize.ShloMosaic.Init

noncomputable section

namespace Cert.Proof

open Idealize.ShloMosaic Idealize.SL.Sem Idealize.ShloMosaic.ValueIdx Cert.Kernel
open Cert.MaskedSoftmax

/-- Under the precondition the reference's result array is the kernel's: entry `(r, q)` of the reference is the
    two-step masked softmax of row `r`, the kernel's the fused one, and the row law joins them because the inputs are
    real and the row's divisor is not zero. -/
theorem reference_eq_fused (x0 x1 : (⟨Cert.ReferenceIdeal.S128x100000, .f32⟩ : BufTy).Contents (Elt Ideal))
    (hx : ∀ i, ∃ r : ℝ, x0 i = (r : EReal)) (hm : ∀ i, ∃ r : ℝ, x1 i = (r : EReal))
    (hd : ∀ r : Fin 128, Cert.ReferenceIdeal.Read.val_main_v12 (F := Ideal) x0 x1 (ix1 r) ≠ 0) :
    Cert.ReferenceIdeal.Read.val_main_v15 (F := Ideal) x0 x1 = fusedRows (R := 128) (n := 100000) x0 x1 := by
  funext i
  obtain ⟨r, q, rfl⟩ : ∃ (r : Fin 128) (q : Fin 100000), i = ix2 r q := ⟨i 0, i 1, eq_ix2 i⟩
  refine (Cert.ReferenceIdeal.RowValue.result_row x0 x1 r q).trans ?_
  show renorm (fun l : Fin 100000 => x0 (ix2 r l)) (fun l : Fin 100000 => x1 (ix2 r l)) q
      = fused (fun l : Fin 100000 => x0 (ix2 r l)) (fun l : Fin 100000 => x1 (ix2 r l)) q
  exact renorm_eq_fused (by decide) _ _ (fun k => hx (ix2 r k)) (fun k => hm (ix2 r k))
    (fun h0 => hd r ((Cert.ReferenceIdeal.RowValue.divisor_row x0 x1 r).trans h0)) q

/-- The two idealized programs, run from memories that agree on the arguments, end with equal results: the kernel's
    array is the fused arrangement along the rows of its arguments whatever they hold, and under the precondition the
    reference's is the same function of the same arguments. -/
theorem algebraic : Cert.algebraic_KernelIdeal_ReferenceIdeal := by
  intro m ρ m' ρ' hpre hagree
  refine ⟨_, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  obtain ⟨hx, hm, hd⟩ := Cert.Pre_finite_inputs.Domain.decode _ _ (hpre c)
  exact (Cert.ReferenceIdeal.Read.val_main_v15_eq _ _).trans (reference_eq_fused _ _ hx hm hd)

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
